-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096 : Shape := ⟨2, ![4, 4096]⟩
abbrev S50257x1024 : Shape := ⟨2, ![50257, 1024]⟩
abbrev S1024x1024 : Shape := ⟨2, ![1024, 1024]⟩
abbrev S_ : Shape := ⟨0, ![]⟩

class Facts : Prop where
  bcast_S_S50257x1024 : S_.BroadcastsInDim S50257x1024 (![] : Fin 0 → Fin S50257x1024.rank)
  reducesTo_S50257x1024_S_d0_1 : S50257x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4x4096 : S_.BroadcastsInDim S4x4096 (![] : Fin 0 → Fin S4x4096.rank)
  reducesTo_S4x4096_S_d0_1 : S4x4096.ReducesTo [0, 1] S_

variable [Facts]

def fn {F : FTy → Type} [FloatOps F] (main_arg0 : IVec S4x4096 32) (main_arg1 : FVec F S50257x1024 .f32) (main_arg2 : FVec F S1024x1024 .f32) : IVec S_ 1 :=
  let main_v0 : FVec F S50257x1024 .f32 := Host.absf main_arg1
  let main_cst : FVec F S_ .f32 := constant S_ .f32 0x7F800000#32
  let main_v1 : FVec F S50257x1024 .f32 := broadcastInDim S50257x1024 ![] bcast_S_S50257x1024 main_cst
  let main_v2 : IVec S50257x1024 1 := cmpf .olt main_v0 main_v1
  let main_c : IVec S_ 1 := constantI S_ 1 1#1
  let main_v3 : IVec S_ 1 := (fun x v => Host.reduce IntOp.andi x v reducesTo_S50257x1024_S_d0_1 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_c_2 : IVec S_ 32 := constantI S_ 32 4294917039#32
  let main_v9 : IVec S4x4096 32 := broadcastInDim S4x4096 ![] bcast_S_S4x4096 main_c_2
  let main_v10 : IVec S4x4096 1 := cmpi .sge main_arg0 main_v9
  let main_c_3 : IVec S_ 32 := constantI S_ 32 50256#32
  let main_v11 : IVec S4x4096 32 := broadcastInDim S4x4096 ![] bcast_S_S4x4096 main_c_3
  let main_v12 : IVec S4x4096 1 := cmpi .sle main_arg0 main_v11
  let main_v13 : IVec S4x4096 1 := andi main_v10 main_v12
  let main_c_4 : IVec S_ 1 := constantI S_ 1 1#1
  let main_v14 : IVec S_ 1 := (fun x v => Host.reduce IntOp.andi x v reducesTo_S4x4096_S_d0_1 h_S_) main_v13 main_c_4
  let main_v15 : IVec S_ 1 := andi main_v8 main_v14
  main_v15
-- ==== Kernel.lean ====
abbrev S4x4096 : Shape := ⟨2, ![4, 4096]⟩
abbrev S50257x1024 : Shape := ⟨2, ![50257, 1024]⟩
abbrev S1024x1024 : Shape := ⟨2, ![1024, 1024]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x1024 : Shape := ⟨2, ![16384, 1024]⟩
abbrev S4x4096x1024 : Shape := ⟨3, ![4, 4096, 1024]⟩

abbrev nBuf : Space → Nat
  | .hbm => 30
  | .vmem => 5
  | .smem => 0
  | _ => 0

abbrev bufTy : (tb : Table) → Fin (tcTables nBuf tb) → BufTy
  | .hbm, ⟨0, _⟩ => ⟨S4x4096, .i32⟩
  | .hbm, ⟨1, _⟩ => ⟨S50257x1024, .f32⟩
  | .hbm, ⟨2, _⟩ => ⟨S1024x1024, .f32⟩
  | .hbm, ⟨3, _⟩ => ⟨S16384, .i32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S1, .i32⟩
  | .hbm, ⟨13, _⟩ => ⟨S_, .i32⟩
  | .hbm, ⟨14, _⟩ => ⟨S16384x1, .i32⟩
  | .hbm, ⟨15, _⟩ => ⟨S16384x1, .i1⟩
  | .hbm, ⟨16, _⟩ => ⟨S1x1, .i32⟩
  | .hbm, ⟨17, _⟩ => ⟨S16384x1, .i32⟩
  | .hbm, ⟨18, _⟩ => ⟨S16384x1, .i1⟩
  | .hbm, ⟨19, _⟩ => ⟨S16384x1, .i1⟩
  | .hbm, ⟨20, _⟩ => ⟨S_, .i1⟩
  | .hbm, ⟨21, _⟩ => ⟨S16384, .i1⟩
  | .hbm, ⟨22, _⟩ => ⟨S16384x1024, .f32⟩
  | .hbm, ⟨23, _⟩ => ⟨S16384x1024, .i1⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S1024x1024, .bf16⟩
  | .hbm, ⟨28, _⟩ => ⟨S16384x1024, .f32⟩
  | .hbm, ⟨29, _⟩ => ⟨S4x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x4096_S16384 : S4x4096.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x1024_0 : S16384.BroadcastsInDim S16384x1024 (![0] : Fin 1 → Fin S16384x1024.rank)
  bcast_S_S16384x1024 : S_.BroadcastsInDim S16384x1024 (![] : Fin 0 → Fin S16384x1024.rank)
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S16384x1024_S4x4096x1024 : S16384x1024.ShapeCasts S4x4096x1024
  gather_S50257x1024_S16384x1_S16384x1024_1_0_n_n_0_1_11024_wf : GatherDims.WF S50257x1024 S16384x1 S16384x1024 [1] [0] [] [0] [] 1 ![1, 1024]
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x1024.size a
  hwx0_2 : ∀ i : grid0.Coords, EltTy.bits .f32 = 32 ∨ (Rect.block (s := S16384x1024) S1024x1024.size (cc0_transform_2 i) (hinb0_2 i)).WholeWords (EltTy.packing .f32)

variable [Facts₀]

def gather_S50257x1024_S16384x1_S16384x1024_1_0_n_n_0_1_11024 : GatherDims S50257x1024 S16384x1 S16384x1024 where
  offsetDims := [1]
  collapsedSliceDims := [0]
  operandBatchingDims := []
  startIndicesBatchingDims := []
  startIndexMap := [0]
  indexVectorDim := 1
  sliceSizes := ![1, 1024]
  wf := gather_S50257x1024_S16384x1_S16384x1024_1_0_n_n_0_1_11024_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096 : Shape := ⟨2, ![4, 4096]⟩
abbrev S50257x1024 : Shape := ⟨2, ![50257, 1024]⟩
abbrev S1024x1024 : Shape := ⟨2, ![1024, 1024]⟩
abbrev S_ : Shape := ⟨0, ![]⟩
abbrev S4x4096x1 : Shape := ⟨3, ![4, 4096, 1]⟩
abbrev S1 : Shape := ⟨1, ![1]⟩
abbrev S1x1x1 : Shape := ⟨3, ![1, 1, 1]⟩
abbrev S4x4096x1024 : Shape := ⟨3, ![4, 4096, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4x4096, .i32⟩
  | .hbm, ⟨1, _⟩ => ⟨S50257x1024, .f32⟩
  | .hbm, ⟨2, _⟩ => ⟨S1024x1024, .f32⟩
  | .hbm, ⟨3, _⟩ => ⟨S50257x1024, .f32⟩
  | .hbm, ⟨4, _⟩ => ⟨S_, .i32⟩
  | .hbm, ⟨5, _⟩ => ⟨S4x4096, .i32⟩
  | .hbm, ⟨6, _⟩ => ⟨S4x4096, .i1⟩
  | .hbm, ⟨7, _⟩ => ⟨S_, .i32⟩
  | .hbm, ⟨8, _⟩ => ⟨S4x4096, .i32⟩
  | .hbm, ⟨9, _⟩ => ⟨S4x4096, .i32⟩
  | .hbm, ⟨10, _⟩ => ⟨S4x4096, .i32⟩
  | .hbm, ⟨11, _⟩ => ⟨S4x4096x1, .i32⟩
  | .hbm, ⟨12, _⟩ => ⟨S1, .i32⟩
  | .hbm, ⟨13, _⟩ => ⟨S_, .i32⟩
  | .hbm, ⟨14, _⟩ => ⟨S4x4096x1, .i32⟩
  | .hbm, ⟨15, _⟩ => ⟨S4x4096x1, .i1⟩
  | .hbm, ⟨16, _⟩ => ⟨S1x1x1, .i32⟩
  | .hbm, ⟨17, _⟩ => ⟨S4x4096x1, .i32⟩
  | .hbm, ⟨18, _⟩ => ⟨S4x4096x1, .i1⟩
  | .hbm, ⟨19, _⟩ => ⟨S4x4096x1, .i1⟩
  | .hbm, ⟨20, _⟩ => ⟨S_, .i1⟩
  | .hbm, ⟨21, _⟩ => ⟨S4x4096, .i1⟩
  | .hbm, ⟨22, _⟩ => ⟨S4x4096x1024, .f32⟩
  | .hbm, ⟨23, _⟩ => ⟨S4x4096x1024, .i1⟩
  | .hbm, ⟨24, _⟩ => ⟨S_, .f32⟩
  | .hbm, ⟨25, _⟩ => ⟨S4x4096x1024, .f32⟩
  | .hbm, ⟨26, _⟩ => ⟨S4x4096x1024, .f32⟩
  | _, _ => ⟨S4x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩

abbrev nD : Nat := 1
abbrev τ : Topo := Topo.v7x

variable {F : FTy → Type} [FloatOps F]

class Facts₀ : Prop where
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S1_S1x1x1_2 : S1.BroadcastsInDim S1x1x1 (![2] : Fin 1 → Fin S1x1x1.rank)
  bcast_S1x1x1_S4x4096x1_0_1_2 : S1x1x1.BroadcastsInDim S4x4096x1 (![0, 1, 2] : Fin 3 → Fin S4x4096x1.rank)
  reducesTo_S4x4096x1_S4x4096_d2 : S4x4096x1.ReducesTo [2] S4x4096
  h_S_ : 0 < S_.numel
  bcast_S4x4096_S4x4096x1024_0_1 : S4x4096.BroadcastsInDim S4x4096x1024 (![0, 1] : Fin 2 → Fin S4x4096x1024.rank)
  bcast_S_S4x4096x1024 : S_.BroadcastsInDim S4x4096x1024 (![] : Fin 0 → Fin S4x4096x1024.rank)
  dot_S50257x1024_S1024x1024_S50257x1024_1_0_0_1_n_n_wf : DotDims.WF S50257x1024 S1024x1024 S50257x1024 [1] [0] [0] [1] [] []
  gather_S50257x1024_S4x4096x1_S4x4096x1024_2_0_n_n_0_2_11024_wf : GatherDims.WF S50257x1024 S4x4096x1 S4x4096x1024 [2] [0] [] [0] [] 2 ![1, 1024]

variable [Facts₀]

def dot_S50257x1024_S1024x1024_S50257x1024_1_0_0_1_n_n : DotDims S50257x1024 S1024x1024 S50257x1024 where
  lhsContracting := [1]
  rhsContracting := [0]
  lhsNonContracting := [0]
  rhsNonContracting := [1]
  lhsBatch := []
  rhsBatch := []
  wf := dot_S50257x1024_S1024x1024_S50257x1024_1_0_0_1_n_n_wf
def gather_S50257x1024_S4x4096x1_S4x4096x1024_2_0_n_n_0_2_11024 : GatherDims S50257x1024 S4x4096x1 S4x4096x1024 where
  offsetDims := [2]
  collapsedSliceDims := [0]
  operandBatchingDims := []
  startIndicesBatchingDims := []
  startIndexMap := [0]
  indexVectorDim := 2
  sliceSizes := ![1, 1024]
  wf := gather_S50257x1024_S4x4096x1_S4x4096x1024_2_0_n_n_0_2_11024_wf

class Facts : Prop extends Facts₀ where

variable [Facts]
-- ==== Proof.Spec.lean ====
/-
  The result both programs compute, as one function of the three argument arrays.

  A table `W` of 50257 rows and 1024 columns is multiplied by a 1024 × 1024 matrix `R` and rows are taken out by an array
  of integer row numbers: entry `(b, s, d)` of the result is `∑ k, W (row, k) * R (k, d)` where `row` is the row the number
  `ids (b, s)` selects. A negative number counts from the end of the table (`-1` is the last row), so the number is first
  wrapped by adding the table's height when it is negative; the wrapped number is then read signed and clamped into the
  table, which is what the row selection does with any start index. A wrapped number outside `0 … 50256` makes the
  selection answer a fill value instead of a row; `Valid` says no entry of `ids` does that, and under it "multiply the
  whole table, then take rows" and "take rows, then multiply them" are the same sums term by term: the product acts on
  each row of the table by itself.
-/
import Idealize.ShloMosaic.Lib.ValueIdx
import Idealize.ShloMosaic.PureOps.Ideal.Laws

noncomputable section

namespace Cert.Take

open Idealize.ShloMosaic Idealize.ShloMosaic.ValueIdx

/-- A row number wrapped: a negative one counts from the end of the table (its height, 50257, is added). -/
def wrapIdx (x : BitVec 32) : BitVec 32 :=
  Scalar.select (IntOp.cmpi .slt x 0#32) (IntOp.addi x 50257#32) x

/-- Whether a wrapped row number lies in the table: `0 ≤ y` and `y ≤ 50256`, as one bit. -/
def inTable (y : BitVec 32) : BitVec 1 :=
  IntOp.andi (IntOp.cmpi .sge y 0#32) (IntOp.cmpi .sle y 50256#32)

/-- The row a wrapped row number selects: read signed, clamped into `0 … 50256`. -/
def rowOf (y : BitVec 32) : Fin 50257 := ⟨min y.toInt.toNat 50256, by omega⟩

/-- Every entry of the array of row numbers, once wrapped, lies in the table. -/
def Valid (ids : (⟨2, ![4, 4096]⟩ : Shape).Idx → BitVec 32) : Prop :=
  ∀ (b : Fin 4) (s : Fin 4096), inTable (wrapIdx (ids (ix2 b s))) = 1#1

/-- The result: entry `(b, s, d)` is row `ids (b, s)` of the table times column `d` of the matrix. -/
def G (ids : (⟨2, ![4, 4096]⟩ : Shape).Idx → BitVec 32) (W : (⟨2, ![50257, 1024]⟩ : Shape).Idx → EReal)
    (R : (⟨2, ![1024, 1024]⟩ : Shape).Idx → EReal) : (⟨3, ![4, 4096, 1024]⟩ : Shape).Idx → EReal :=
  fun i => ∑ k : Fin 1024,
    W (ix2 (rowOf (wrapIdx (ids (ix2 (n0 := 4) (n1 := 4096) (i 0) (i 1))))) k) * R (ix2 (n0 := 1024) (n1 := 1024) k (i 2))

/-- `G` at an index given by its coordinates. -/
theorem G_apply (ids : (⟨2, ![4, 4096]⟩ : Shape).Idx → BitVec 32) (W : (⟨2, ![50257, 1024]⟩ : Shape).Idx → EReal)
    (R : (⟨2, ![1024, 1024]⟩ : Shape).Idx → EReal) (b : Fin 4) (s : Fin 4096) (d : Fin 1024) :
    G ids W R (ix3 b s d) = ∑ k : Fin 1024, W (ix2 (rowOf (wrapIdx (ids (ix2 b s)))) k) * R (ix2 k d) := rfl

end Cert.Take

end
-- ==== Proof.PreValid.lean ====
/-
  The precondition gives validity of the row numbers.

  The stated precondition asks, besides finiteness of the two float arrays, that every row number lies in
  `-50257 … 50256`. Such a number, wrapped (the table's height 50257 added when it is negative), lies in `0 … 50256`:
  a negative one is at least `-50257`, so the sum is between `0` and `50256` and does not wrap around in 32 bits; a
  non-negative one is unchanged. That is the bit `inTable (wrapIdx x)`.
-/
import proofs.«147177_j35983236006037_2_alg».proof.Pre_finite_inputs
import proofs.«147177_j35983236006037_2_alg».proof.Proof.Spec
import Idealize.ShloMosaic.Lib.ReduceAll
import Idealize.ShloMosaic.Lib.ValueIdx

noncomputable section

namespace Cert.Take

open Idealize.ShloMosaic Idealize.ShloMosaic.ValueIdx

/-- A row number between `-50257` and `50256` wraps into the table. -/
theorem inTable_wrap_of_range (x : BitVec 32) (h1 : (4294917039#32 : BitVec 32).toInt ≤ x.toInt)
    (h2 : x.toInt ≤ (50256#32 : BitVec 32).toInt) : inTable (wrapIdx x) = 1#1 := by
  have e1 : (4294917039#32 : BitVec 32).toInt = -50257 := by decide
  have e2 : (50256#32 : BitVec 32).toInt = 50256 := by decide
  have e0 : (0#32 : BitVec 32).toInt = 0 := by decide
  rw [e1] at h1
  rw [e2] at h2
  unfold inTable wrapIdx Scalar.select
  rw [IntOp.andi_eq_one, IntOp.cmpi_sge, IntOp.cmpi_sle, e0, e2]
  by_cases hc : IntOp.cmpi .slt x 0#32 = 1
  · rw [if_pos hc]
    have hneg : x.toInt < 0 := by have := IntOp.cmpi_slt.1 (hc : _ = 1#1); rwa [e0] at this
    have e3 : (50257#32 : BitVec 32).toInt = 50257 := by decide
    have hs : (IntOp.addi x 50257#32).toInt = x.toInt + 50257 := by
      unfold IntOp.addi
      rw [BitVec.toInt_add, e3]
      exact Int.bmod_eq_of_le (by omega) (by omega)
    rw [hs]
    omega
  · rw [if_neg hc]
    have hpos : ¬ x.toInt < 0 := fun h => hc (IntOp.cmpi_slt.2 (by rwa [e0]))
    omega

instance : Subsingleton Cert.Pre_finite_inputs.S_.Idx := ⟨fun _ _ => funext fun d => d.elim0⟩

/-- The printed precondition, when it is all ones, says every row number is valid. -/
theorem valid_of_fn [Cert.Pre_finite_inputs.Facts] {F : FTy → Type} [FloatOps F]
    (ids : IVec Cert.Pre_finite_inputs.S4x4096 32) (W : FVec F Cert.Pre_finite_inputs.S50257x1024 .f32)
    (R : FVec F Cert.Pre_finite_inputs.S1024x1024 .f32)
    (h : Cert.Pre_finite_inputs.fn (F := F) ids W R = fun _ => 1#1) : Valid ids := by
  intro b s
  have h0 := congrFun h ix0
  dsimp only [Cert.Pre_finite_inputs.fn, andi] at h0
  obtain ⟨-, h14⟩ := IntOp.andi_eq_one.1 h0
  have h13 := Host.reduce_andi_all _ _ _ _ _ h14 (ix2 b s)
  obtain ⟨hge, hle⟩ := IntOp.andi_eq_one.1 h13
  exact inTable_wrap_of_range _ (IntOp.cmpi_sge.1 hge) (IntOp.cmpi_sle.1 hle)

end Cert.Take

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.KernelPay.lean ====
/-
  What the kernel body stores, at an index.

  The body loads a 1024 × 1024 block of rows and the whole 1024 × 1024 matrix, changes the rows' float format (no change
  of value over the extended reals), and stores their matrix product accumulated from zero: entry `(p, q)` of the stored
  block is `∑ k, rows (p, k) * matrix (k, q)`.
-/
import proofs.«147177_j35983236006037_2_alg».proof.Proof.Gen.KernelIdeal.Skeleton
import proofs.«147177_j35983236006037_2_alg».proof.Proof.LibPlainDot
import Idealize.ShloMosaic.Lib.Pipeline.Value
import Idealize.ShloMosaic.Lib.ValueIdx

noncomputable section

namespace Cert.KernelIdeal.TakeValue

open Idealize.ShloMosaic Idealize.ShloMosaic.ValueIdx Cert.KernelIdeal

/-- Entry `(p, q)` of the block the body stores is row `p` of the loaded rows times column `q` of the loaded matrix. -/
theorem pay_apply (x0 : Vec Ideal S1024x1024 .f32) (x1 : Vec Ideal S1024x1024 .bf16) (p q : Fin 1024) :
    Gen.k0_pay1 (F := Ideal) x0 x1 (ix2 p q) = ∑ k : Fin 1024, x0 (ix2 p k) * x1 (ix2 k q) := by
  unfold Gen.k0_pay1
  refine (Cert.Sage.matmul_plain_zero_apply (M := 1024) (K := 1024) (N := 1024) none _ _ p q).trans ?_
  refine Finset.sum_congr rfl fun k _ => ?_
  rw [truncf_apply, shapeCast_self, shapeCast_self]

end Cert.KernelIdeal.TakeValue

end
-- ==== Proof.KernelBlocks.lean ====
/-
  From blocks to the array: what the product array holds after the region.

  The region's grid has sixteen points. Point `t` is given rows `1024 t … 1024 t + 1023` of the row array (all 1024
  columns) and the whole matrix, and writes rows `1024 t … 1024 t + 1023` of the output. What it writes is the block
  product, so entry `(1024 t + p, q)` of the output is `∑ k, rows (1024 t + p, k) * matrix (k, q)`: the same function
  of the two arrays at every point. Row `r` lies in the block of point `r / 1024`, so the blocks cover the output and
  the output ends as the product of the two arrays, entry by entry.
-/
import proofs.«147177_j35983236006037_2_alg».proof.Proof.Gen.KernelIdeal.Frame
import proofs.«147177_j35983236006037_2_alg».proof.Proof.KernelPay
import Idealize.ShloMosaic.Lib.Pipeline.Value

noncomputable section

namespace Cert.KernelIdeal.TakeValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The product of a 16384 × 1024 array of rows with a 1024 × 1024 matrix, entry by entry. -/
def rowsTimes (A : S16384x1024.Idx → EReal) (B : S1024x1024.Idx → EReal) : S16384x1024.Idx → EReal :=
  fun i => ∑ k : Fin 1024, A (ix2 (n0 := 16384) (n1 := 1024) (i 0) k) * B (ix2 (n0 := 1024) (n1 := 1024) k (i 1))

theorem offsets_zero : (![0, 0] : Fin 2 → Nat) = fun _ => 0 := funext fun a => by fin_cases a <;> rfl

/-- The block numbers at a grid point: the rows' and the output's block is the point's number along the rows and `0`
    along the columns; the matrix is one block. -/
theorem block_numbers : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- What point `t` writes back is block `t` of the product of the two arrays as the region finds them. -/
theorem flushed_eq (c : Dev nD) (t : Fin cfg0.N) :
    (dats m 0 c).flushed 2 t
      = ((cfg0.win 2).blk t).view.read (Elt Ideal) (rowsTimes (V m c main_v1) (V m c main_v2)) := by
  show (cfg0.win 2).cut (grid0.coords t) ((dats m 0 c).after 2 t) = _
  rw [after0_2]
  unfold out0_2
  rw [View.canon_unit_zero offsets_zero]
  simp only [View.ld_unit_zero (S := S1024x1024) offsets_zero]
  obtain ⟨e0, e1, e2, e3, e4, e5⟩ := block_numbers t
  funext j
  obtain ⟨p, q, rfl⟩ : ∃ (p : Fin 1024) (q : Fin 1024), j = ix2 p q := ⟨j 0, j 1, eq_ix2 j⟩
  show k0_pay1 (iblk m c 0 t) (iblk m c 1 t) (ix2 p q)
    = rowsTimes (V m c main_v1) (V m c main_v2) (((cfg0.win 2).blk t).view.emb (ix2 p q))
  refine (pay_apply _ _ p q).trans ?_
  unfold rowsTimes
  refine Finset.sum_congr rfl fun k _ => ?_
  have h0 : ((cfg0.win 0).blk t).view.emb (ix2 p k)
      = ix2 (n0 := 16384) (n1 := 1024) ((((cfg0.win 2).blk t).view.emb (ix2 p q)) 0) k := by
    funext a; apply Fin.ext
    match a with
    | ⟨0, _⟩ => show win0_0.index t (0 : Fin 2) * 1024 + 1 * p.val = win0_2.index t (0 : Fin 2) * 1024 + 1 * p.val; omega
    | ⟨1, _⟩ => show win0_0.index t (1 : Fin 2) * 1024 + 1 * k.val = k.val; omega
  have h1 : ((cfg0.win 1).blk t).view.emb (ix2 k q)
      = ix2 (n0 := 1024) (n1 := 1024) k ((((cfg0.win 2).blk t).view.emb (ix2 p q)) 1) := by
    funext a; apply Fin.ext
    match a with
    | ⟨0, _⟩ => show win0_1.index t (0 : Fin 2) * 1024 + 1 * k.val = k.val; omega
    | ⟨1, _⟩ => show win0_1.index t (1 : Fin 2) * 1024 + 1 * q.val = win0_2.index t (1 : Fin 2) * 1024 + 1 * q.val; omega
  have r0 : iblk m c 0 t (ix2 p k)
      = V m c main_v1 (ix2 (n0 := 16384) (n1 := 1024) ((((cfg0.win 2).blk t).view.emb (ix2 p q)) 0) k) := by
    show V m c main_v1 (((cfg0.win 0).blk t).view.emb (ix2 p k)) = _
    rw [h0]
  have r1 : iblk m c 1 t (ix2 k q)
      = V m c main_v2 (ix2 (n0 := 1024) (n1 := 1024) k ((((cfg0.win 2).blk t).view.emb (ix2 p q)) 1)) := by
    show V m c main_v2 (((cfg0.win 1).blk t).view.emb (ix2 k q)) = _
    rw [h1]
  rw [r0, r1]

/-- An index of the output is in point `t`'s block iff each coordinate is in the block's range on its axis. -/
theorem mem_blk (t : Fin cfg0.N) (i : S16384x1024.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v3).slice (win0_2.rect t)).set ↔ _
  rw [View.set_slice_whole, Rect.mem_set_unit]
  exact Iff.rfl

/-- Every index of the output is in the block of the point its row falls to. -/
theorem cover (i : S16384x1024.Idx) :
    ∃ t : Fin cfg0.N, (cfg0.win 2).flush t = true ∧ i ∈ ((cfg0.win 2).blk t).view.set := by
  have hi0 : (i 0).val < 16384 := (i 0).isLt
  have hi1 : (i 1).val < 1024 := (i 1).isLt
  have hN : grid0.N = 16 := N_0
  have ht : (i 0).val / 1024 < grid0.N := by rw [hN]; omega
  obtain ⟨e0, e1, e2, e3, e4, e5⟩ := block_numbers ⟨(i 0).val / 1024, ht⟩
  refine ⟨⟨(i 0).val / 1024, ht⟩, flush0_2 _, ?_⟩
  rw [mem_blk]
  intro a
  match a with
  | ⟨0, _⟩ =>
    show win0_2.index ⟨(i 0).val / 1024, ht⟩ (0 : Fin 2) * 1024 ≤ (i 0).val
      ∧ (i 0).val < win0_2.index ⟨(i 0).val / 1024, ht⟩ (0 : Fin 2) * 1024 + 1024
    rw [e5]
    show (i 0).val / 1024 * 1024 ≤ (i 0).val ∧ (i 0).val < (i 0).val / 1024 * 1024 + 1024
    omega
  | ⟨1, _⟩ =>
    show win0_2.index ⟨(i 0).val / 1024, ht⟩ (1 : Fin 2) * 1024 ≤ (i 1).val
      ∧ (i 1).val < win0_2.index ⟨(i 0).val / 1024, ht⟩ (1 : Fin 2) * 1024 + 1024
    omega

/-- The output array after the region: the product of the two arrays the region found. -/
theorem final (c : Dev nD) :
    (dats m 0 c).arrAt 2 cfg0.N = rowsTimes (V m c main_v1) (V m c main_v2) :=
  (dats m 0 c).arrAt_eq_of_cover 2 _ (fun t _ => flushed_eq m c t) cover

end Cert.KernelIdeal.TakeValue

end
-- ==== Proof.LibTRef.lean ====
/-
  Typed references: writing through one and reading back.

  A typed reference is a buffer together with the fact that the buffer's type is a given one; contents at the given type are
  carried to contents of the buffer, and back, along that fact. For any typed reference the round trip is the identity,
  in both orders: the fact is an equation between two types, and along an equation of a type with itself carrying is the
  identity.
-/
import Idealize.ShloMosaic.Lib.StableHlo

namespace Cert.LibTRef

open Idealize.ShloMosaic Idealize.ShloMosaic.StableHlo

variable {sig : RefSig} {Val : EltTy → Type} {T : BufTy}

/-- Carrying contents along an equation of types and back along the same equation is the identity. -/
theorem cast_cast_symm {α β : Type} (h : α = β) (h' : β = α) (v : α) : cast h' (cast h v) = v := by
  subst h; rfl

/-- Contents written through a typed reference read back through it unchanged. -/
theorem ofBuf_toBuf (x : TRef sig T) (v : T.Contents Val) : x.ofBuf (x.toBuf v) = v :=
  cast_cast_symm _ _ v

/-- A buffer's contents read through a typed reference write back through it unchanged. -/
theorem toBuf_ofBuf (x : TRef sig T) (u : x.ref.ty.Contents Val) : x.toBuf (x.ofBuf u) = u :=
  cast_cast_symm _ _ u

end Cert.LibTRef
-- ==== Proof.LibAllOnes.lean ====
/-
  An `and`-reduction of ones is one.

  A one-operand reduce by `and` over one-bit words folds the operand's elements that drop to a result index into the
  initial value; when the initial value and every element are `1` the fold never leaves `1`. (The converse — a result
  of `1` had only ones — is the library's.)
-/
import Idealize.ShloMosaic.Lib.ReduceAll

namespace Cert.LibAllOnes

open Idealize.ShloMosaic

/-- A left fold by `and` from `1` over words that are all `1` is `1`. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-- A reduce by `and` of an array of ones from an initial value of ones is `1` at every result index. -/
theorem reduce_andi_one {s t u : Shape} {axes : List (Fin s.rank)} (x : s.Idx → BitVec 1) (init : u.Idx → BitVec 1)
    (h : s.ReducesTo axes t) (hu : 0 < u.numel) (j : t.Idx) (hinit : ∀ k, init k = 1#1) (hx : ∀ i, x i = 1#1) :
    Host.reduce IntOp.andi x init h hu j = 1#1 := by
  rw [Host.reduce_eq_foldl, hinit]
  exact foldl_andi_one x _ fun n _ => hx n

end Cert.LibAllOnes
-- ==== Proof.LibGatherRows.lean ====
/-
  Whole rows of a table gathered at a column of row numbers, read at an index, for any extents.

  What `table[rows]` lowers to for a table `[N, C]` and row numbers `[R]` held as an `[R, 1]` array: a gather with one
  offset axis (the columns), the row axis collapsed, slices of one row. Result entry `(r, k)` is the table at column `k`
  of the row whose number is `rows (r, 0)`, read as a signed integer and clamped into `0 … N − 1`; the column passes
  through.
-/
import Idealize.ShloMosaic.Lib.ValueIdx

noncomputable section

namespace Cert.LibGatherRows

open Idealize.ShloMosaic Idealize.ShloMosaic.ValueIdx

variable {α : Type}

/-- The dimension numbers of that gather; their conditions are decided on a program's literal shapes. -/
abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The gather read at `(r, k)`: column `k` of the row numbered `rows (r, 0)`, read signed and clamped into the table. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowDims N R C wf) x idx (ix2 r k)
      = x (ix2 ⟨min (idx (ix2 r (0 : Fin 1))).toInt.toNat (N - 1), by omega⟩ k) := by
  unfold Host.gather
  refine congrArg x (funext fun a => Fin.ext ?_)
  match a with
  | ⟨0, _⟩ =>
    show (rowDims N R C wf).start (ix2 r k) idx 0 + (rowDims N R C wf).batchCoord (ix2 r k) 0
      + (rowDims N R C wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r k) ⟨List.idxOf (0 : Fin 2) (rowDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N R C wf).start (ix2 r k) idx 1 + (rowDims N R C wf).batchCoord (ix2 r k) 1
      + (rowDims N R C wf).offCoord (ix2 r k) 1 = k.val
    rw [GatherDims.batchCoord_eq_zero _ _ _ List.not_mem_nil]
    unfold GatherDims.start
    rw [dif_neg (show ¬ (1 : Fin 2) ∈ (rowDims N R C wf).startIndexMap from
      fun h => Nat.one_ne_zero (congrArg Fin.val (List.mem_singleton.mp h)))]
    simp only [Nat.add_zero, Nat.zero_add]
    rfl

end Cert.LibGatherRows

end
-- ==== Proof.KernelHost.lean ====
/-
  The two arrays the region finds: the rows taken out of the table, and the matrix.

  Before the region the program flattens the 4 × 4096 array of row numbers to one list of 16384 (entry `4096 b + s` of
  the list is entry `(b, s)` of the array), takes rows of the table at them, and changes the matrix's float format.
  Taking rows: each number is wrapped (a negative one counts from the end), tested for lying in the table, and used as a
  start row of a gather; where the test fails the row is replaced by a fill value. When every wrapped number lies in the
  table the test is `1` everywhere, no fill is used, and entry `(r, k)` of the taken rows is the table at column `k` of
  the row the wrapped number `r` selects. Over the extended reals a change of float format changes no value, so the
  matrix the region finds is the argument matrix.
-/
import proofs.«147177_j35983236006037_2_alg».proof.Proof.Gen.KernelIdeal.Frame
import proofs.«147177_j35983236006037_2_alg».proof.Proof.Spec
import proofs.«147177_j35983236006037_2_alg».proof.Proof.LibTRef
import proofs.«147177_j35983236006037_2_alg».proof.Proof.LibAllOnes
import proofs.«147177_j35983236006037_2_alg».proof.Proof.LibGatherRows
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.TakeValue

open Cert.KernelIdeal Cert.KernelIdeal.Gen Idealize.ShloMosaic Idealize.ShloMosaic.TcCoe Idealize.SL.Sem
open Idealize.ShloMosaic.ValueIdx Idealize.ShloMosaic.StableHlo
open Cert.Take (wrapIdx inTable rowOf Valid)

/-! ## The host operations before the region, as pure functions of their operands -/

/-- The row numbers as one list. -/
def flatIds (ids : S4x4096.Idx → BitVec 32) : IVec S16384 32 := shapeCast S16384 ids shapeCasts_S4x4096_S16384

/-- Each number wrapped: the table's height added when it is negative. -/
def wrapped (i1 : IVec S16384 32) : IVec S16384 32 :=
  select (cmpi .slt i1 (broadcastInDim S16384 ![] bcast_S_S16384 (constantI S_ 32 0#32)))
    (addi i1 (broadcastInDim S16384 ![] bcast_S_S16384 (constantI S_ 32 50257#32))) i1

/-- The wrapped numbers as a column of start rows. -/
def starts (i1 : IVec S16384 32) : IVec S16384x1 32 :=
  broadcastInDim S16384x1 ![0] bcast_S16384_S16384x1_0 (wrapped i1)

/-- Whether each start row lies in the table. -/
def inside (i1 : IVec S16384 32) : IVec S16384x1 1 :=
  andi (cmpi .sge (starts i1) (broadcastInDim S16384x1 ![] bcast_S_S16384x1 (constantI S_ 32 0#32)))
    (cmpi .sle (starts i1) (broadcastInDim S16384x1 ![0, 1] bcast_S1x1_S16384x1_0_1
      (broadcastInDim S1x1 ![1] bcast_S1_S1x1_1 (constantI S1 32 50256#32))))

/-- The same per list entry: the column's one entry, reduced by `and`. -/
def mask (i1 : IVec S16384 32) : IVec S16384 1 :=
  Host.reduce IntOp.andi (inside i1) (constantI S_ 1 1#1) reducesTo_S16384x1_S16384_d1 h_S_

/-- The rows taken: the gathered row where the number lies in the table, a fill value elsewhere. -/
def takenRows (W : S50257x1024.Idx → EReal) (i1 : IVec S16384 32) : S16384x1024.Idx → EReal :=
  select (broadcastInDim S16384x1024 ![0] bcast_S16384_S16384x1024_0 (mask i1))
    (Host.gather gather_S50257x1024_S16384x1_S16384x1024_1_0_n_n_0_1_11024 W (starts i1))
    (broadcastInDim S16384x1024 ![] bcast_S_S16384x1024 (constant (F := Ideal) S_ .f32 0x7FC00000#32))

/-! ## Each of them read at an index -/

/-- Entry `4096 b + s` of the list is entry `(b, s)` of the array. -/
theorem flatIds_apply (ids : S4x4096.Idx → BitVec 32) (b : Fin 4) (s : Fin 4096) (r : Fin 16384)
    (hr : r.val = b.val * 4096 + s.val) : flatIds ids (ix1 r) = ids (ix2 b s) :=
  shapeCast_apply ids shapeCasts_S4x4096_S16384 (ix1 r) (ix2 b s) (by
    rw [Shape.rowMajor_val_two, Shape.rowMajor_val_one]
    exact hr.symm)

theorem wrapped_apply (i1 : IVec S16384 32) (r : Fin 16384) : wrapped i1 (ix1 r) = wrapIdx (i1 (ix1 r)) := rfl

theorem starts_apply (i1 : IVec S16384 32) (r : Fin 16384) :
    starts i1 (ix2 r (0 : Fin 1)) = wrapIdx (i1 (ix1 r)) := by
  unfold starts
  rw [broadcastInDim_apply ![0] bcast_S16384_S16384x1_0 (wrapped i1) (ix2 r (0 : Fin 1)) (ix1 r) (fun a => by
    match a with
    | ⟨0, _⟩ => rfl)]
  rfl

theorem inside_apply (i1 : IVec S16384 32) (r : Fin 16384) :
    inside i1 (ix2 r (0 : Fin 1)) = inTable (wrapIdx (i1 (ix1 r))) := by
  show IntOp.andi (IntOp.cmpi .sge (starts i1 (ix2 r (0 : Fin 1))) 0#32)
    (IntOp.cmpi .sle (starts i1 (ix2 r (0 : Fin 1))) 50256#32) = _
  rw [starts_apply]
  rfl

/-- When every wrapped number lies in the table, the test is `1` at every list entry. -/
theorem mask_one (i1 : IVec S16384 32) (h : ∀ r : Fin 16384, inTable (wrapIdx (i1 (ix1 r))) = 1#1) (r : Fin 16384) :
    mask i1 (ix1 r) = 1#1 :=
  Cert.LibAllOnes.reduce_andi_one _ _ _ _ _ (fun _ => rfl) (fun i => by
    obtain ⟨r', z, rfl⟩ : ∃ (r' : Fin 16384) (z : Fin 1), i = ix2 r' z := ⟨i 0, i 1, eq_ix2 i⟩
    obtain rfl : z = 0 := Subsingleton.elim _ _
    rw [inside_apply]
    exact h r')

/-- Then entry `(r, k)` of the taken rows is column `k` of the table's row that the wrapped number `r` selects. -/
theorem takenRows_apply (W : S50257x1024.Idx → EReal) (i1 : IVec S16384 32)
    (h : ∀ r : Fin 16384, inTable (wrapIdx (i1 (ix1 r))) = 1#1) (r : Fin 16384) (k : Fin 1024) :
    takenRows W i1 (ix2 r k) = W (ix2 (rowOf (wrapIdx (i1 (ix1 r)))) k) := by
  unfold takenRows
  rw [select_apply, broadcastInDim_apply ![0] bcast_S16384_S16384x1024_0 (mask i1) (ix2 r k) (ix1 r) (fun a => by
    match a with
    | ⟨0, _⟩ => rfl), mask_one i1 h r, select_one]
  refine (Cert.LibGatherRows.gather_rows_apply (N := 50257) (R := 16384) (C := 1024) (by decide) _ W (starts i1) r k).trans ?_
  exact congrArg (fun a : Fin 50257 => W (ix2 (n0 := 50257) (n1 := 1024) a k)) (Fin.ext (by
    show min (starts i1 (ix2 r (0 : Fin 1))).toInt.toNat (50257 - 1) = min (wrapIdx (i1 (ix1 r))).toInt.toNat 50256
    rw [starts_apply]))

/-! ## The region's arrays are those functions of the arguments -/

variable (m : (ℓ : Loc nD τ sig) → Buf (Elt Ideal) ℓ)

attribute [local irreducible] Host.reduce Host.gather in
set_option maxHeartbeats 1000000 in
/-- The row array the region finds: the rows taken out of the argument table at the flattened argument numbers. -/
theorem V_rows (c : Dev nD) :
    (V m c main_v1 : S16384x1024.Idx → EReal)
      = takenRows (m ((c : Thread nD τ).loc main_arg1)) (flatIds (m ((c : Thread nD τ).loc main_arg0))) := by
  dsimp only [Gen.V, Gen.V0]
  simp only [Gen.hostOps0, Gen.hostOps0_1, Gen.hostOps0_2, List.flatten_cons, List.flatten_nil, List.append_nil,
    List.cons_append, List.nil_append]
  after_results_simp
  simp only [Cert.LibTRef.ofBuf_toBuf]
  rfl

set_option maxHeartbeats 1000000 in
/-- The matrix the region finds: the argument matrix in the narrower float format. -/
theorem V_matrix (c : Dev nD) :
    (V m c main_v2 : S1024x1024.Idx → EReal)
      = truncf (F := Ideal) .bf16 (m ((c : Thread nD τ).loc main_arg2)) bitsLt_bf16_f32 := by
  dsimp only [Gen.V, Gen.V0]
  simp only [Gen.hostOps0, Gen.hostOps0_1, Gen.hostOps0_2, List.flatten_cons, List.flatten_nil, List.append_nil,
    List.cons_append, List.nil_append]
  after_results_simp

end Cert.KernelIdeal.TakeValue

end
-- ==== Proof.LibGroupRows.lean ====
/-
  Rows taken in consecutive groups, for any extents.

  An `[m, d]` array regarded as `[n, g, d]` (row `r * g + j` becomes entry `(r, j)`: `n` consecutive groups of `g`
  rows) read at an index given by coordinates, and the sum over the middle axis of an `[n, g, d]` array read at
  `(r, c)` as the sum of the `g` entries `(r, j, c)`. Together: the sum of each group's rows.
-/
import Idealize.ShloMosaic.Lib.Pipeline.Value
import Idealize.ShloMosaic.Lib.ValueIdx
import Idealize.ShloMosaic.PureOps.Ideal.Laws

noncomputable section

namespace Cert.Sage

open Idealize.ShloMosaic Idealize.ShloMosaic.ValueIdx

/-- An `[m, d]` array cast to `[n, g, d]` reads, at `(r, j, c)`, the operand's row `r * g + j` at column `c`:
    the two indices have the same row-major position `(r * g + j) * d + c`. -/
theorem shapeCast_groups_apply {α : Type} {m n g d : ℕ} (x : (⟨2, ![m, d]⟩ : Shape).Idx → α)
    (h : (⟨2, ![m, d]⟩ : Shape).ShapeCasts ⟨3, ![n, g, d]⟩) (r : Fin n) (j : Fin g) (c : Fin d)
    (hr : r.val * g + j.val < m) :
    shapeCast ⟨3, ![n, g, d]⟩ x h (ix3 r j c) = x (ix2 ⟨r.val * g + j.val, hr⟩ c) :=
  shapeCast_apply x h _ _ (by
    rw [Shape.rowMajor_val_two, Shape.rowMajor_val_three]
    rfl)

/-- A float sum over the middle axis of an `[n, g, d]` array, read at the extended reals at `(r, c)`, is the sum over
    `j` of the entries `(r, j, c)`: the reduced index with `j` inserted at the middle axis is `(r, j, c)`. -/
theorem multiReduction_add_mid_apply {φ : FTy} {n g d : ℕ} (src : FVec Ideal ⟨3, ![n, g, d]⟩ φ) (acc : BitVec φ.bits)
    (h : (⟨3, ![n, g, d]⟩ : Shape).Reduces [1] ⟨2, ![n, d]⟩) (hφ : FKind.Formats φ) (hacc : acc = FKind.add.neutral φ hφ)
    (r : Fin n) (c : Fin d) :
    multiReduction .add [1] ⟨2, ![n, d]⟩ src acc h hφ hacc (ix2 r c) = ∑ j : Fin g, src (ix3 r j c) := by
  refine (Ideal.multiReduction_add_single src acc h hφ hacc (ix2 r c)).trans ?_
  refine Finset.sum_congr rfl fun j _ => congrArg src (funext fun a => Fin.ext ?_)
  match a with
  | ⟨0, _⟩ => rfl
  | ⟨1, _⟩ => rfl
  | ⟨2, _⟩ => rfl

end Cert.Sage

end
-- ==== Proof.KernelRun.lean ====
/-
  The kernel's program ends with the specified result.

  After the region the 16384 × 1024 product array is regarded as 4 × 4096 × 1024: entry `(b, s, d)` of the result is
  entry `(4096 b + s, d)` of the product. That entry is the sum over `k` of the taken rows' entry `(4096 b + s, k)` times
  the matrix's entry `(k, d)`; the taken row `4096 b + s` is the table's row that row number `(b, s)` selects (all
  numbers being valid), and the matrix is the argument matrix. So the result is the specified function of the three
  argument arrays, and the arguments end as they began.
-/
import proofs.«147177_j35983236006037_2_alg».proof.Proof.KernelBlocks
import proofs.«147177_j35983236006037_2_alg».proof.Proof.KernelHost
import proofs.«147177_j35983236006037_2_alg».proof.Proof.LibGroupRows
import proofs.«147177_j35983236006037_2_alg».proof.Proof.Spec
import Idealize.ShloMosaic.Lib.StableHlo.Run

noncomputable section

namespace Cert.KernelIdeal.TakeValue

open Cert.KernelIdeal Cert.KernelIdeal.Gen Idealize.ShloMosaic Idealize.ShloMosaic.TcCoe Idealize.SL.Sem
open Idealize.ShloMosaic.ValueIdx Idealize.ShloMosaic.StableHlo
open Cert.Take (wrapIdx inTable rowOf Valid)

variable (m : (ℓ : Loc nD τ sig) → Buf (Elt Ideal) ℓ) (ρ : Dev nD → PrngReg)

/-- What the result buffer holds after the operation that follows the region: the product array regarded as
    4 × 4096 × 1024. -/
theorem tail_eq (c : Dev nD) :
    (Pipeline.afterTail₀ cfgs (dats m) 0 (V0 m) [hostOps1] c main_v4 : S4x4096x1024.Idx → EReal)
      = shapeCast S4x4096x1024 (rowsTimes (V m c main_v1) (V m c main_v2)) shapeCasts_S16384x1024_S4x4096x1024 := by
  unfold Pipeline.afterTail₀
  show StableHlo.after (hostOps1 (F := Ideal)) _ (Proc.devRef .tc main_v4) = _
  after_results
  rw [show Pipeline.withArrays (cfgs 0).spec c (V0 m c) (fun w => (dats m 0 c).arrAt w (cfgs 0).N)
      (Proc.devRef .tc main_v3) = rowsTimes (V m c main_v1) (V m c main_v2) from
    (Pipeline.withArrays_arr spec0 launch0.win.arr_inj c _ _ 2).trans (final m c)]
  rfl

/-- Every entry of the flattened list of row numbers is valid when every entry of the array is. -/
theorem flat_valid (ids : S4x4096.Idx → BitVec 32) (hv : Valid ids) (r : Fin 16384) :
    inTable (wrapIdx (flatIds ids (ix1 r))) = 1#1 := by
  have hr : r.val < 16384 := r.isLt
  rw [flatIds_apply ids ⟨r.val / 4096, by omega⟩ ⟨r.val % 4096, by omega⟩ r (by
    show r.val = r.val / 4096 * 4096 + r.val % 4096
    omega)]
  exact hv _ _

/-- The result buffer holds the specified function of the argument arrays. -/
theorem result_eq (c : Dev nD) (hv : Valid (m ((c : Thread nD τ).loc main_arg0))) :
    (Pipeline.afterTail₀ cfgs (dats m) 0 (V0 m) [hostOps1] c main_v4 : S4x4096x1024.Idx → EReal)
      = Cert.Take.G (m ((c : Thread nD τ).loc main_arg0)) (m ((c : Thread nD τ).loc main_arg1))
          (m ((c : Thread nD τ).loc main_arg2)) := by
  rw [tail_eq]
  funext i
  obtain ⟨b, s, d, rfl⟩ : ∃ (b : Fin 4) (s : Fin 4096) (d : Fin 1024), i = ix3 b s d := ⟨i 0, i 1, i 2, eq_ix3 i⟩
  have hb : b.val < 4 := b.isLt
  have hs : s.val < 4096 := s.isLt
  have hr : b.val * 4096 + s.val < 16384 := by omega
  rw [Cert.Sage.shapeCast_groups_apply _ _ b s d hr, Cert.Take.G_apply, V_rows m c, V_matrix m c]
  unfold rowsTimes
  refine Finset.sum_congr rfl fun k _ => ?_
  exact congrArg₂ (fun x y : EReal => x * y)
    ((takenRows_apply _ _ (flat_valid _ hv) ⟨b.val * 4096 + s.val, hr⟩ k).trans (by
      rw [flatIds_apply _ b s ⟨b.val * 4096 + s.val, hr⟩ rfl]))
    rfl

/-- THE KERNEL'S RUN: every weakly fair execution terminates with the result buffer at the specified function of the
    argument arrays and the argument arrays unchanged. -/
theorem run (hv : ∀ c : Dev nD, Valid (m ((c.tc : Thread nD τ).loc main_arg0))) :
    θ_run (defs (F := Ideal)) (onTc (τ := τ) (main (F := Ideal))) ⟨m, fun _ => 0, ρ⟩ (fun r => ∀ c : Dev nD,
      r.2.mem ((c.tc : Thread nD τ).loc main_v4)
          = Cert.Take.G (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v4 (Pipeline.mem_restRefs_of main_v4 (by decide) (by decide))).trans (result_eq m c (hv c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.TakeValue

end
-- ==== Proof.RefRun.lean ====
/-
  The reference program's run: what it leaves in each buffer, as one function of the three argument arrays.

  The program is one matrix product (a table of 50257 rows and 1024 columns times a 1024 × 1024 matrix) followed by
  a row selection written as a call of an outlined function: the row numbers are wrapped (a negative one counts from
  the end of the table), a mask says which wrapped numbers lie in the table, the rows of the product are gathered at
  the wrapped numbers, and where the mask is off a fill value is written instead. Unfolding the calls at their sites
  makes the program a straight line of twenty-four operations; every execution of it terminates with the result
  buffer holding the composition of the operations' functions applied to the arguments' contents at launch, and
  with the arguments unchanged.
-/
import proofs.«147177_j35983236006037_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem
  Idealize.ShloMosaic.StableHlo

variable {F : FTy → Type} [FloatOps F]

/-! ## The result as one term of the arguments -/

/-- The row numbers wrapped: where a number is negative the table's height is added. -/
def wrapped (ids : IVec S4x4096 32) : IVec S4x4096 32 :=
  select (cmpi .slt ids (broadcastInDim S4x4096 ![] bcast_S_S4x4096 (constantI S_ 32 0#32)))
    (addi ids (broadcastInDim S4x4096 ![] bcast_S_S4x4096 (constantI S_ 32 50257#32))) ids

/-- The wrapped row numbers with a unit axis appended: the start indices of the row selection. -/
def starts (ids : IVec S4x4096 32) : IVec S4x4096x1 32 :=
  broadcastInDim S4x4096x1 ![0, 1] bcast_S4x4096_S4x4096x1_0_1 (wrapped ids)

/-- Per start index, whether it lies in the table: `0 ≤ y` and `y ≤ 50256`. -/
def inside (ids : IVec S4x4096 32) : IVec S4x4096x1 1 :=
  andi (cmpi .sge (starts ids) (broadcastInDim S4x4096x1 ![] bcast_S_S4x4096x1 (constantI S_ 32 0#32)))
    (cmpi .sle (starts ids)
      (broadcastInDim S4x4096x1 ![0, 1, 2] bcast_S1x1x1_S4x4096x1_0_1_2
        (broadcastInDim S1x1x1 ![2] bcast_S1_S1x1x1_2 (constantI S1 32 50256#32))))

/-- The mask: the conjunction of `inside` over the unit axis, repeated along the columns. -/
def mask (ids : IVec S4x4096 32) : IVec S4x4096x1024 1 :=
  broadcastInDim S4x4096x1024 ![0, 1] bcast_S4x4096_S4x4096x1024_0_1
    (Host.reduce IntOp.andi (inside ids) (constantI S_ 1 1#1) reducesTo_S4x4096x1_S4x4096_d2 h_S_)

/-- The product of the table and the matrix. -/
def product (W : FVec F S50257x1024 .f32) (R : FVec F S1024x1024 .f32) : FVec F S50257x1024 .f32 :=
  Host.dotGeneral dot_S50257x1024_S1024x1024_S50257x1024_1_0_0_1_n_n none W R

/-- The rows of the product at the start indices. -/
def gathered (ids : IVec S4x4096 32) (W : FVec F S50257x1024 .f32) (R : FVec F S1024x1024 .f32) :
    FVec F S4x4096x1024 .f32 :=
  Host.gather gather_S50257x1024_S4x4096x1_S4x4096x1024_2_0_n_n_0_2_11024 (product W R) (starts ids)

/-- What the program leaves in its result buffer: the gathered rows where the mask is on, a fill value elsewhere. -/
def refTerm (ids : IVec S4x4096 32) (W : FVec F S50257x1024 .f32) (R : FVec F S1024x1024 .f32) :
    FVec F S4x4096x1024 .f32 :=
  select (mask ids) (gathered ids W R)
    (broadcastInDim S4x4096x1024 ![] bcast_S_S4x4096x1024 (constant S_ .f32 0x7FC00000#32))

/-! ## The program as a straight line -/

/-- @main's operations in order, the calls unfolded: the product, then the row selection's twenty-three (the wrap's
    select is the inner call's one operation), over the call's buffers. -/
abbrev ops : List (HloOp τ sig (Elt F)) :=
  [ binary main_arg1 main_arg2 main_v0 ((fun l r => Host.dotGeneral dot_S50257x1024_S1024x1024_S50257x1024_1_0_0_1_n_n none l r) : (⟨S50257x1024, .f32⟩ : BufTy).Contents (Elt F) → (⟨S1024x1024, .f32⟩ : BufTy).Contents (Elt F) → (⟨S50257x1024, .f32⟩ : BufTy).Contents (Elt F)),
    TRef.nullary main_call0.c (constantI S_ 32 0#32),
    TRef.unary main_call0.c main_call0.v0 (broadcastInDim S4x4096 ![] bcast_S_S4x4096),
    TRef.binary (.of main_arg0) main_call0.v0 main_call0.v1 (cmpi .slt),
    TRef.nullary main_call0.c_0 (constantI S_ 32 50257#32),
    TRef.unary main_call0.c_0 main_call0.v2 (broadcastInDim S4x4096 ![] bcast_S_S4x4096),
    TRef.binary (.of main_arg0) main_call0.v2 main_call0.v3 addi,
    TRef.ternary main_call0.v1 main_call0.v3 (.of main_arg0) main_call0.call0.v0 select,
    TRef.unary main_call0.call0.v0 main_call0.v5 (broadcastInDim S4x4096x1 ![0, 1] bcast_S4x4096_S4x4096x1_0_1),
    TRef.nullary main_call0.c_1 (constantI S1 32 50256#32),
    TRef.nullary main_call0.c_2 (constantI S_ 32 0#32),
    TRef.unary main_call0.c_2 main_call0.v6 (broadcastInDim S4x4096x1 ![] bcast_S_S4x4096x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4x4096x1 ![0, 1, 2] bcast_S1x1x1_S4x4096x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x4096x1_S4x4096_d2 h_S_),
    TRef.binary (.of main_v0) main_call0.v5 main_call0.v13 (fun x i => Host.gather gather_S50257x1024_S4x4096x1_S4x4096x1024_2_0_n_n_0_2_11024 x i),
    TRef.unary main_call0.v12 main_call0.v14 (broadcastInDim S4x4096x1024 ![0, 1] bcast_S4x4096_S4x4096x1024_0_1),
    TRef.nullary main_call0.cst (constant S_ .f32 0x7FC00000#32),
    TRef.unary main_call0.cst main_call0.v15 (broadcastInDim S4x4096x1024 ![] bcast_S_S4x4096x1024),
    TRef.ternary main_call0.v14 main_call0.v13 main_call0.v15 main_call0.v16 select ]

set_option maxRecDepth 1024 in
/-- @main is that straight line: the functions' definitions unfolded at their calls, both sides are one chain of
    steps once sequencing is re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..⟩

/-! ## The buffers after the straight line -/

attribute [local irreducible] Host.reduce Host.gather in
set_option maxRecDepth 8192 in
/-- The result buffer after the line holds `refTerm` of the three arguments' contents before it: each operation's
    result is its function's value at the buffer it writes and what was there at every other, and carrying contents
    to a buffer's own type and back is the identity. -/
theorem out_eq (V : Valuation τ sig (Elt F)) :
    after ops V (main_v1 : DevRef τ sig)
      = refTerm (V (main_arg0 : DevRef τ sig)) (V (main_arg1 : DevRef τ sig)) (V (main_arg2 : DevRef τ sig)) := by
  after_results_simp
  rfl

attribute [local irreducible] Host.reduce Host.gather in
set_option maxRecDepth 8192 in
/-- No operation writes the row numbers' buffer. -/
theorem arg0_eq (V : Valuation τ sig (Elt F)) :
    after ops V (main_arg0 : DevRef τ sig) = V (main_arg0 : DevRef τ sig) := by
  simp only [after_cons, after_nil]
  rfl

attribute [local irreducible] Host.reduce Host.gather in
set_option maxRecDepth 8192 in
/-- No operation writes the table's buffer. -/
theorem arg1_eq (V : Valuation τ sig (Elt F)) :
    after ops V (main_arg1 : DevRef τ sig) = V (main_arg1 : DevRef τ sig) := by
  simp only [after_cons, after_nil]
  rfl

attribute [local irreducible] Host.reduce Host.gather in
set_option maxRecDepth 8192 in
/-- No operation writes the matrix's buffer. -/
theorem arg2_eq (V : Valuation τ sig (Elt F)) :
    after ops V (main_arg2 : DevRef τ sig) = V (main_arg2 : DevRef τ sig) := by
  simp only [after_cons, after_nil]
  rfl

/-- On every device, for any float values, from any memory with zero counters: every weakly fair execution of @main
    terminates with the result buffer at `refTerm` of the arguments' contents at launch and the arguments unchanged. -/
theorem run_terms (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1)
          = refTerm (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v1).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.ReferenceIdeal.RefValue

end
-- ==== Proof.RefRead.lean ====
/-
  The reference program's result read at an index, and its run stated against the specification.

  Under the precondition that every wrapped row number lies in the table, the mask the program computes is on
  everywhere: each of its entries is the conjunction, over an axis of length one, of the two comparisons `0 ≤ y` and
  `y ≤ 50256` at the wrapped row number `y`, which is the in-table bit. So every entry of the result is the gathered
  entry. The row selection reads, at result index `(b, s, d)`, the product's entry at row "start index `(b, s, 0)` read
  signed and clamped into `0 … 50256`" and column `d`; the start index there is the wrapped row number of `(b, s)`; and
  the product's entry at `(row, d)` is the sum over `k` of `W (row, k) * R (k, d)`. That sum is the specification's
  entry at `(b, s, d)`.
-/
import proofs.«147177_j35983236006037_2_alg».proof.Proof.RefRun
import proofs.«147177_j35983236006037_2_alg».proof.Proof.Spec
import proofs.«147177_j35983236006037_2_alg».proof.Proof.LibPlainDot
import Idealize.ShloMosaic.Lib.ReduceAll
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx
open Cert.Take (wrapIdx inTable rowOf Valid G G_apply)

/-- The row selection's dimension numbers: operand `[50257, 1024]`, start indices `[4, 4096, 1]`, result `[4, 4096, 1024]`;
    the operand's rows are selected (axis 0 collapsed, named by the one component of a start index), its columns kept
    (the result's axis 2). -/
local notation "gd" => gather_S50257x1024_S4x4096x1_S4x4096x1024_2_0_n_n_0_2_11024

/-! ## The row numbers, wrapped and as start indices -/

/-- An entry of the wrapped row numbers is the entry of the row numbers, wrapped: the two constants compared with and
    added are the same at every index. -/
theorem wrapped_apply (ids : IVec S4x4096 32) (j : S4x4096.Idx) : wrapped ids j = wrapIdx (ids j) := rfl

/-- Repeating a `[4, 4096]` array along a new last axis reads, at `(b, s, c)`, the array at `(b, s)`: neither of its
    axes has length one. -/
theorem coords_2of3 {n : Nat} (b : Fin 4) (s : Fin 4096) (c : Fin n) :
    ∀ a : Fin S4x4096.rank, ((ix2 b s : S4x4096.Idx) a).val
      = if S4x4096.size a = 1 then 0 else ((ix3 b s c : (⟨3, ![4, 4096, n]⟩ : Shape).Idx) ((![0, 1] : Fin 2 → Fin 3) a)).val := by
  intro a
  match a with
  | ⟨0, _⟩ => exact (if_neg (show ¬(4 : ℕ) = 1 by decide)).symm
  | ⟨1, _⟩ => exact (if_neg (show ¬(4096 : ℕ) = 1 by decide)).symm

/-- The start index at `(b, s, z)` is the wrapped row number at `(b, s)`. -/
theorem starts_apply (ids : IVec S4x4096 32) (b : Fin 4) (s : Fin 4096) (z : Fin 1) :
    starts ids (ix3 b s z) = wrapIdx (ids (ix2 b s)) := by
  unfold starts
  exact (broadcastInDim_apply (s := S4x4096) (t := S4x4096x1) _ _ (wrapped ids) (ix3 b s z) (ix2 b s)
    (coords_2of3 b s z)).trans (wrapped_apply ids _)

/-- Whether the start index at `(b, s, z)` lies in the table is the in-table bit of the wrapped row number at `(b, s)`:
    the bounds compared with are `0` and `50256` at every index. -/
theorem inside_apply (ids : IVec S4x4096 32) (b : Fin 4) (s : Fin 4096) (z : Fin 1) :
    inside ids (ix3 b s z) = inTable (wrapIdx (ids (ix2 b s))) := by
  have h := starts_apply ids b s z
  show IntOp.andi (IntOp.cmpi .sge (starts ids (ix3 b s z)) 0#32) (IntOp.cmpi .sle (starts ids (ix3 b s z)) 50256#32) = _
  rw [h]
  rfl

/-- Under the precondition every start index lies in the table. -/
theorem inside_eq_one (ids : IVec S4x4096 32) (hv : Valid ids) (i : S4x4096x1.Idx) : inside ids i = 1#1 := by
  rw [eq_ix3 i]
  exact (inside_apply ids (i 0) (i 1) (i 2)).trans (hv (i 0) (i 1))

/-! ## The mask -/

/-- A left fold by `and` from 1 over words that are all 1 is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    refine foldl_andi_one f l _ ?_ (fun n hn => hl n (List.mem_cons_of_mem _ hn))
    exact IntOp.andi_eq_one.2 ⟨h, hl a List.mem_cons_self⟩

/-- A reduction by `and` from the initial value 1 of an array whose every entry is 1 is 1 at every index, for any
    shapes and reduced axes. -/
theorem reduce_andi_of_all_one {s t u : Shape} {axes : List (Fin s.rank)} (x : s.Idx → BitVec 1) (init : u.Idx → BitVec 1)
    (h : s.ReducesTo axes t) (hu : 0 < u.numel) (j : t.Idx) (hi : init (Shape.Idx.first hu) = 1#1) (hx : ∀ i, x i = 1#1) :
    Host.reduce IntOp.andi x init h hu j = 1#1 := by
  rw [Host.reduce_eq_foldl]
  exact foldl_andi_one x _ _ hi (fun n _ => hx n)

/-- Under the precondition the mask is on everywhere. -/
theorem mask_eq_one (ids : IVec S4x4096 32) (hv : Valid ids) (b : Fin 4) (s : Fin 4096) (d : Fin 1024) :
    mask ids (ix3 b s d) = 1#1 := by
  unfold mask
  exact (broadcastInDim_apply (s := S4x4096) (t := S4x4096x1024) _ _ _ (ix3 b s d) (ix2 b s) (coords_2of3 b s d)).trans
    (reduce_andi_of_all_one (inside ids) _ _ _ _ rfl (inside_eq_one ids hv))

/-! ## The row selection -/

/-- The operand index the row selection reads at result index `(b, s, d)`: its row is the start index at `(b, s, 0)`
    read signed and clamped into `0 … 50256` (the row axis is collapsed and is no batching axis, so nothing is added to
    the clamped start), its column is `d` (the column axis is not named by the start index, so its start is `0`, and it
    is the one kept axis, read by the result's last coordinate). -/
theorem operandIdx_apply (idx : IVec S4x4096x1 32) (b : Fin 4) (s : Fin 4096) (d : Fin 1024) :
    GatherDims.operandIdx gd (ix3 b s d) idx = ix2 (n0 := 50257) (n1 := 1024) (rowOf (idx (ix3 b s 0))) d := by
  funext a
  refine Fin.ext ?_
  match a with
  | ⟨0, _⟩ =>
    show GatherDims.start gd (ix3 b s d) idx 0 + GatherDims.batchCoord gd (ix3 b s d) 0 + GatherDims.offCoord gd (ix3 b s d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (GatherDims.startIndexMap gd) from List.mem_singleton.mpr rfl)]
    have hsi : GatherDims.siIdx gd (ix3 b s d) ⟨List.idxOf (0 : Fin 2) (GatherDims.startIndexMap gd),
        List.idxOf_lt_length_iff.2 (List.mem_singleton.mpr rfl)⟩ = ix3 b s 0 := by
      funext c; refine Fin.ext ?_
      match c with
      | ⟨0, _⟩ => rfl
      | ⟨1, _⟩ => rfl
      | ⟨2, _⟩ => rfl
    rw [hsi]
    rfl
  | ⟨1, _⟩ =>
    show GatherDims.start gd (ix3 b s d) idx 1 + GatherDims.batchCoord gd (ix3 b s d) 1 + GatherDims.offCoord gd (ix3 b s d) 1 = _
    have h0 : GatherDims.start gd (ix3 b s d) idx 1 = 0 := by
      unfold GatherDims.start
      exact dif_neg (by decide)
    have h2 : GatherDims.offCoord gd (ix3 b s d) 1 = d.val := by
      unfold GatherDims.offCoord
      rw [dif_pos ((GatherDims.mem_sKept _ _).mpr ⟨by decide, List.not_mem_nil⟩)]
      rfl
    rw [h0, GatherDims.batchCoord_eq_zero _ _ _ List.not_mem_nil, h2, Nat.zero_add]

/-- The row selection of any `[50257, 1024]` array at result index `(b, s, d)`: the array's entry at the row the start
    index at `(b, s, 0)` selects and column `d`. -/
theorem gather_apply {α : Type} (x : S50257x1024.Idx → α) (idx : IVec S4x4096x1 32) (b : Fin 4) (s : Fin 4096) (d : Fin 1024) :
    Host.gather gd x idx (ix3 b s d) = x (ix2 (rowOf (idx (ix3 b s 0))) d) := by
  unfold Host.gather
  rw [operandIdx_apply]

/-! ## The product, and the result -/

/-- The product's entry at `(r, d)` is the sum over `k` of `W (r, k) * R (k, d)`: its dimension numbers are those of a
    plain matrix product. -/
theorem product_apply (W : FVec Ideal S50257x1024 .f32) (R : FVec Ideal S1024x1024 .f32) (r : Fin 50257) (d : Fin 1024) :
    product W R (ix2 r d) = ∑ k : Fin 1024, W (ix2 r k) * R (ix2 k d) :=
  Cert.Sage.dotGeneral_plain_apply none .single W R r d

/-- Under the precondition the program's result at `(b, s, d)` is the specification's. -/
theorem refTerm_apply (ids : IVec S4x4096 32) (W : FVec Ideal S50257x1024 .f32) (R : FVec Ideal S1024x1024 .f32)
    (hv : Valid ids) (b : Fin 4) (s : Fin 4096) (d : Fin 1024) :
    refTerm ids W R (ix3 b s d) = G ids W R (ix3 b s d) := by
  unfold refTerm
  rw [select_apply, mask_eq_one ids hv b s d, select_one]
  unfold gathered
  rw [gather_apply, starts_apply, product_apply]
  exact (G_apply ids W R b s d).symm

/-- Under the precondition the program's result is the specification's. -/
theorem refTerm_eq_G (ids : IVec S4x4096 32) (W : FVec Ideal S50257x1024 .f32) (R : FVec Ideal S1024x1024 .f32)
    (hv : Valid ids) : refTerm ids W R = G ids W R := by
  funext i
  rw [eq_ix3 i]
  exact refTerm_apply ids W R hv (i 0) (i 1) (i 2)

/-! ## The run -/

/-- On every device, from any memory with zero counters whose row numbers satisfy the precondition: every weakly fair
    execution of @main terminates with the result buffer at the specification's value of the arguments' contents at
    launch, and with the arguments unchanged. -/
theorem run (m : (ℓ : Loc nD τ sig) → Buf (Elt Ideal) ℓ) (ρ : Dev nD → PrngReg)
    (hv : ∀ c : Dev nD, Cert.Take.Valid (m ((c.tc : Thread nD τ).loc main_arg0))) :
    θ_run (defs (F := Ideal)) (onTc (τ := τ) (main (F := Ideal))) ⟨m, fun _ => 0, ρ⟩ (fun r => ∀ c : Dev nD,
      r.2.mem ((c.tc : Thread nD τ).loc main_v1)
          = Cert.Take.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (refTerm_eq_G _ _ _ (hv c)), (h c).2⟩) (run_terms m ρ)

end Cert.ReferenceIdeal.RefValue

end
-- ==== Proof.lean ====
/-
  Taking rows of a table before or after multiplying it by a matrix.

  The kernel's program takes 16384 rows out of a 50257 × 1024 table `W` at given row numbers and multiplies the taken
  rows by a 1024 × 1024 matrix `R`, sixteen blocks of 1024 rows at a time; the reference multiplies the whole table by
  `R` and then takes the rows of the product. A matrix product acts on each row of its left operand by itself, so row
  `i` of `W · R` is `(row i of W) · R`: both programs compute, at `(b, s, d)`, the sum over `k` of
  `W (row, k) * R (k, d)` for the row that row number `(b, s)` selects — the same terms in the same sum, no law of
  arithmetic beyond that is used, so finiteness of the float arrays plays no part. What does matter is that both
  programs replace a row whose number falls outside the table by a fill value, the kernel before multiplying and the
  reference after; the precondition keeps every row number inside the table (`-50257 … 50256`, a negative number
  counting from the end), so that no fill value is ever used on either side.

  The frames of the two kernel programs are the generated ones; the reference's frame is its run with the result
  dropped; nothing was rewritten between the kernel's program and its idealization, so that claim is trivial.
-/
import proofs.«147177_j35983236006037_2_alg».proof.Defs
import proofs.«147177_j35983236006037_2_alg».proof.Proof.Gen.Kernel
import proofs.«147177_j35983236006037_2_alg».proof.Proof.Gen.Kernel.Frame
import proofs.«147177_j35983236006037_2_alg».proof.Proof.Gen.KernelIdeal
import proofs.«147177_j35983236006037_2_alg».proof.Proof.Gen.KernelIdeal.Frame
import proofs.«147177_j35983236006037_2_alg».proof.Proof.Gen.ReferenceIdeal
import proofs.«147177_j35983236006037_2_alg».proof.Proof.Gen.Pre_finite_inputs
import proofs.«147177_j35983236006037_2_alg».proof.Proof.PreValid
import proofs.«147177_j35983236006037_2_alg».proof.Proof.KernelRun
import proofs.«147177_j35983236006037_2_alg».proof.Proof.RefRead
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs under the precondition (its row numbers are valid), and its arguments end unchanged. -/
theorem frame_referenceIdeal : Cert.frame_ReferenceIdeal := fun m ρ hpre =>
  (θ_run Cert.ReferenceIdeal.defs _ _).mono (fun _ h c => (h c).2)
    (Cert.ReferenceIdeal.RefValue.run m ρ fun c => Cert.Take.valid_of_fn _ _ _ (hpre c))

theorem preserves : Cert.preserves_Kernel_KernelIdeal := trivial

/-- Both programs end with the specified function of the argument arrays, which agree. -/
theorem algebraic : Cert.algebraic_KernelIdeal_ReferenceIdeal := by
  intro m ρ m' ρ' hpre hagree
  have hv : ∀ c : Dev Cert.KernelIdeal.nD, Cert.Take.Valid
      (m ((c.tc : Thread Cert.KernelIdeal.nD Cert.KernelIdeal.τ).loc Cert.KernelIdeal.main_arg0)) :=
    fun c => Cert.Take.valid_of_fn _ _ _ (hpre c)
  refine ⟨_, Cert.KernelIdeal.TakeValue.run m ρ hv, ?_⟩
  refine (θ_run Cert.ReferenceIdeal.defs _ _).mono (fun _ h c => ⟨(h c).1.trans ?_, (h c).2⟩)
    (Cert.ReferenceIdeal.RefValue.run m' ρ' fun c => by rw [(hagree c).1]; exact hv c)
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
